-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1536 : Shape := ⟨3, ![32, 2048, 1536]⟩
abbrev S32 : Shape := ⟨1, ![32]⟩
abbrev S2x32 : Shape := ⟨2, ![2, 32]⟩
abbrev S_ : Shape := ⟨0, ![]⟩

class Facts : Prop where
  bcast_S_S32x2048x1536 : S_.BroadcastsInDim S32x2048x1536 (![] : Fin 0 → Fin S32x2048x1536.rank)
  reducesTo_S32x2048x1536_S_d0_1_2 : S32x2048x1536.ReducesTo [0, 1, 2] S_
  h_S_ : 0 < S_.numel
  bcast_S_S2x32 : S_.BroadcastsInDim S2x32 (![] : Fin 0 → Fin S2x32.rank)
  reducesTo_S2x32_S_d0_1 : S2x32.ReducesTo [0, 1] S_

variable [Facts]

def fn_part1 {F : FTy → Type} [FloatOps F] (main_arg5 : FVec F S2x32 .f32) (main_v13 : IVec S_ 1) (main_v16 : IVec S2x32 1) : IVec S_ 1 :=
  let main_c_5 : IVec S_ 1 := constantI S_ 1 1#1
  let main_v17 : IVec S_ 1 := (fun x v => Host.reduce IntOp.andi x v reducesTo_S2x32_S_d0_1 h_S_) main_v16 main_c_5
  let main_v18 : IVec S_ 1 := andi main_v13 main_v17
  let main_v19 : FVec F S2x32 .f32 := Host.absf main_arg5
  let main_cst_6 : FVec F S_ .f32 := constant S_ .f32 0x7F800000#32
  let main_v20 : FVec F S2x32 .f32 := broadcastInDim S2x32 ![] bcast_S_S2x32 main_cst_6
  let main_v21 : IVec S2x32 1 := cmpf .olt main_v19 main_v20
  let main_c_7 : IVec S_ 1 := constantI S_ 1 1#1
  let main_v22 : IVec S_ 1 := (fun x v => Host.reduce IntOp.andi x v reducesTo_S2x32_S_d0_1 h_S_) main_v21 main_c_7
  let main_v23 : IVec S_ 1 := andi main_v18 main_v22
  main_v23

def fn {F : FTy → Type} [FloatOps F] (main_arg0 : FVec F S32x2048x1536 .f32) (main_arg1 : IVec S32 32) (main_arg2 : FVec F S2x32 .f32) (main_arg3 : FVec F S2x32 .f32) (main_arg4 : FVec F S2x32 .f32) (main_arg5 : FVec F S2x32 .f32) : IVec S_ 1 :=
  let main_v0 : FVec F S32x2048x1536 .f32 := Host.absf main_arg0
  let main_cst : FVec F S_ .f32 := constant S_ .f32 0x7F800000#32
  let main_v1 : FVec F S32x2048x1536 .f32 := broadcastInDim S32x2048x1536 ![] bcast_S_S32x2048x1536 main_cst
  let main_v2 : IVec S32x2048x1536 1 := cmpf .olt main_v0 main_v1
  let main_c : IVec S_ 1 := constantI S_ 1 1#1
  let main_v3 : IVec S_ 1 := (fun x v => Host.reduce IntOp.andi x v reducesTo_S32x2048x1536_S_d0_1_2 h_S_) main_v2 main_c
  let main_v4 : FVec F S2x32 .f32 := Host.absf main_arg2
  let main_cst_0 : FVec F S_ .f32 := constant S_ .f32 0x7F800000#32
  let main_v5 : FVec F S2x32 .f32 := broadcastInDim S2x32 ![] bcast_S_S2x32 main_cst_0
  let main_v6 : IVec S2x32 1 := cmpf .olt main_v4 main_v5
  let main_c_1 : IVec S_ 1 := constantI S_ 1 1#1
  let main_v7 : IVec S_ 1 := (fun x v => Host.reduce IntOp.andi x v reducesTo_S2x32_S_d0_1 h_S_) main_v6 main_c_1
  let main_v8 : IVec S_ 1 := andi main_v3 main_v7
  let main_v9 : FVec F S2x32 .f32 := Host.absf main_arg3
  let main_cst_2 : FVec F S_ .f32 := constant S_ .f32 0x7F800000#32
  let main_v10 : FVec F S2x32 .f32 := broadcastInDim S2x32 ![] bcast_S_S2x32 main_cst_2
  let main_v11 : IVec S2x32 1 := cmpf .olt main_v9 main_v10
  let main_c_3 : IVec S_ 1 := constantI S_ 1 1#1
  let main_v12 : IVec S_ 1 := (fun x v => Host.reduce IntOp.andi x v reducesTo_S2x32_S_d0_1 h_S_) main_v11 main_c_3
  let main_v13 : IVec S_ 1 := andi main_v8 main_v12
  let main_v14 : FVec F S2x32 .f32 := Host.absf main_arg4
  let main_cst_4 : FVec F S_ .f32 := constant S_ .f32 0x7F800000#32
  let main_v15 : FVec F S2x32 .f32 := broadcastInDim S2x32 ![] bcast_S_S2x32 main_cst_4
  let main_v16 : IVec S2x32 1 := cmpf .olt main_v14 main_v15
  fn_part1 (F := F) main_arg5 main_v13 main_v16
-- ==== Kernel.lean ====
abbrev S32x2048x1536 : Shape := ⟨3, ![32, 2048, 1536]⟩
abbrev S32 : Shape := ⟨1, ![32]⟩
abbrev S2x32 : Shape := ⟨2, ![2, 32]⟩
abbrev S_ : Shape := ⟨0, ![]⟩
abbrev S1x32 : Shape := ⟨2, ![1, 32]⟩
abbrev S2048 : Shape := ⟨1, ![2048]⟩
abbrev S1x1x2048 : Shape := ⟨3, ![1, 1, 2048]⟩
abbrev S2x32x1 : Shape := ⟨3, ![2, 32, 1]⟩
abbrev S2x32x2048 : Shape := ⟨3, ![2, 32, 2048]⟩
abbrev S32x2048 : Shape := ⟨2, ![32, 2048]⟩
abbrev S1280 : Shape := ⟨1, ![1280]⟩
abbrev S1x1x1280 : Shape := ⟨3, ![1, 1, 1280]⟩
abbrev S2x32x1280 : Shape := ⟨3, ![2, 32, 1280]⟩
abbrev S32x1280 : Shape := ⟨2, ![32, 1280]⟩
abbrev S8x128x1536 : Shape := ⟨3, ![8, 128, 1536]⟩
abbrev S8x128 : Shape := ⟨2, ![8, 128]⟩
abbrev S8x1280 : Shape := ⟨2, ![8, 1280]⟩
abbrev S8x128x256 : Shape := ⟨3, ![8, 128, 256]⟩
abbrev S8x128x1280 : Shape := ⟨3, ![8, 128, 1280]⟩
abbrev S8x128x1 : Shape := ⟨3, ![8, 128, 1]⟩
abbrev S8x1x1280 : Shape := ⟨3, ![8, 1, 1280]⟩

abbrev nBuf : Space → Nat
  | .hbm => 92
  | .vmem => 8
  | .smem => 0
  | _ => 0

abbrev bufTy : (tb : Table) → Fin (tcTables nBuf tb) → BufTy
  | .hbm, ⟨0, _⟩ => ⟨S32x2048x1536, .f32⟩
  | .hbm, ⟨1, _⟩ => ⟨S32, .i32⟩
  | .hbm, ⟨2, _⟩ => ⟨S2x32, .f32⟩
  | .hbm, ⟨3, _⟩ => ⟨S2x32, .f32⟩
  | .hbm, ⟨4, _⟩ => ⟨S2x32, .f32⟩
  | .hbm, ⟨5, _⟩ => ⟨S2x32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S1x32, .f32⟩
  | .hbm, ⟨12, _⟩ => ⟨S_, .f32⟩
  | .hbm, ⟨13, _⟩ => ⟨S1x32, .f32⟩
  | .hbm, ⟨14, _⟩ => ⟨S1x32, .f32⟩
  | .hbm, ⟨15, _⟩ => ⟨S2x32, .f32⟩
  | .hbm, ⟨16, _⟩ => ⟨S2x32, .f32⟩
  | .hbm, ⟨17, _⟩ => ⟨S2x32, .f32⟩
  | .hbm, ⟨18, _⟩ => ⟨S2x32, .i32⟩
  | .hbm, ⟨19, _⟩ => ⟨S1x32, .i32⟩
  | .hbm, ⟨20, _⟩ => ⟨S2x32, .i32⟩
  | .hbm, ⟨21, _⟩ => ⟨S2x32, .i32⟩
  | .hbm, ⟨22, _⟩ => ⟨S_, .i32⟩
  | .hbm, ⟨23, _⟩ => ⟨S2x32, .i32⟩
  | .hbm, ⟨24, _⟩ => ⟨S2x32, .i1⟩
  | .hbm, ⟨25, _⟩ => ⟨S2x32, .f32⟩
  | .hbm, ⟨26, _⟩ => ⟨S_, .f32⟩
  | .hbm, ⟨27, _⟩ => ⟨S2x32, .f32⟩
  | .hbm, ⟨28, _⟩ => ⟨S2x32, .f32⟩
  | .hbm, ⟨29, _⟩ => ⟨S2x32, .f32⟩
  | .hbm, ⟨30, _⟩ => ⟨S2x32, .f32⟩
  | .hbm, ⟨31, _⟩ => ⟨S2x32, .i32⟩
  | .hbm, ⟨32, _⟩ => ⟨S_, .i32⟩
  | .hbm, ⟨33, _⟩ => ⟨S_, .i32⟩
  | .hbm, ⟨34, _⟩ => ⟨S2x32, .i32⟩
  | .hbm, ⟨35, _⟩ => ⟨S2x32, .i32⟩
  | .hbm, ⟨36, _⟩ => ⟨S2048, .i32⟩
  | .hbm, ⟨37, _⟩ => ⟨S1x1x2048, .i32⟩
  | .hbm, ⟨38, _⟩ => ⟨S2x32x1, .i32⟩
  | .hbm, ⟨39, _⟩ => ⟨S2x32x2048, .i32⟩
  | .hbm, ⟨40, _⟩ => ⟨S2x32x2048, .i32⟩
  | .hbm, ⟨41, _⟩ => ⟨S2x32x2048, .i1⟩
  | .hbm, ⟨42, _⟩ => ⟨S2x32, .i32⟩
  | .hbm, ⟨43, _⟩ => ⟨S2x32x1, .i32⟩
  | .hbm, ⟨44, _⟩ => ⟨S2x32x2048, .i32⟩
  | .hbm, ⟨45, _⟩ => ⟨S2x32x2048, .i32⟩
  | .hbm, ⟨46, _⟩ => ⟨S2x32x2048, .i1⟩
  | .hbm, ⟨47, _⟩ => ⟨S2x32x2048, .i1⟩
  | .hbm, ⟨48, _⟩ => ⟨S_, .i1⟩
  | .hbm, ⟨49, _⟩ => ⟨S32x2048, .i1⟩
  | .hbm, ⟨50, _⟩ => ⟨S_, .f32⟩
  | .hbm, ⟨51, _⟩ => ⟨S2x32, .f32⟩
  | .hbm, ⟨52, _⟩ => ⟨S2x32, .f32⟩
  | .hbm, ⟨53, _⟩ => ⟨S2x32, .f32⟩
  | .hbm, ⟨54, _⟩ => ⟨S2x32, .i32⟩
  | .hbm, ⟨55, _⟩ => ⟨S_, .i32⟩
  | .hbm, ⟨56, _⟩ => ⟨S2x32, .i32⟩
  | .hbm, ⟨57, _⟩ => ⟨S2x32, .i32⟩
  | .hbm, ⟨58, _⟩ => ⟨S_, .i32⟩
  | .hbm, ⟨59, _⟩ => ⟨S_, .i32⟩
  | .hbm, ⟨60, _⟩ => ⟨S2x32, .i32⟩
  | .hbm, ⟨61, _⟩ => ⟨S2x32, .i32⟩
  | .hbm, ⟨62, _⟩ => ⟨S2x32, .f32⟩
  | .hbm, ⟨63, _⟩ => ⟨S_, .f32⟩
  | .hbm, ⟨64, _⟩ => ⟨S2x32, .f32⟩
  | .hbm, ⟨65, _⟩ => ⟨S2x32, .f32⟩
  | .hbm, ⟨66, _⟩ => ⟨S2x32, .f32⟩
  | .hbm, ⟨67, _⟩ => ⟨S2x32, .f32⟩
  | .hbm, ⟨68, _⟩ => ⟨S2x32, .i32⟩
  | .hbm, ⟨69, _⟩ => ⟨S1280, .i32⟩
  | .hbm, ⟨70, _⟩ => ⟨S1x1x1280, .i32⟩
  | .hbm, ⟨71, _⟩ => ⟨S2x32x1, .i32⟩
  | .hbm, ⟨72, _⟩ => ⟨S2x32x1280, .i32⟩
  | .hbm, ⟨73, _⟩ => ⟨S2x32x1280, .i32⟩
  | .hbm, ⟨74, _⟩ => ⟨S2x32x1280, .i1⟩
  | .hbm, ⟨75, _⟩ => ⟨S2x32, .i32⟩
  | .hbm, ⟨76, _⟩ => ⟨S2x32x1, .i32⟩
  | .hbm, ⟨77, _⟩ => ⟨S2x32x1280, .i32⟩
  | .hbm, ⟨78, _⟩ => ⟨S2x32x1280, .i32⟩
  | .hbm, ⟨79, _⟩ => ⟨S2x32x1280, .i1⟩
  | .hbm, ⟨80, _⟩ => ⟨S2x32x1280, .i1⟩
  | .hbm, ⟨81, _⟩ => ⟨S_, .i1⟩
  | .hbm, ⟨82, _⟩ => ⟨S32x1280, .i1⟩
  | .hbm, ⟨83, _⟩ => ⟨S32x2048, .f32⟩
  | .hbm, ⟨84, _⟩ => ⟨S_, .f32⟩
  | .hbm, ⟨85, _⟩ => ⟨S32x2048, .f32⟩
  | .hbm, ⟨86, _⟩ => ⟨S32x2048, .f32⟩
  | .hbm, ⟨87, _⟩ => ⟨S32x1280, .f32⟩
  | .hbm, ⟨88, _⟩ => ⟨S_, .f32⟩
  | .hbm, ⟨89, _⟩ => ⟨S32x1280, .f32⟩
  | .hbm, ⟨90, _⟩ => ⟨S32x1280, .f32⟩
  | .hbm, ⟨91, _⟩ => ⟨S32x2048x1536, .f32⟩
  | .local _ .vmem, ⟨0, _⟩ => ⟨S8x128x1536, .f32⟩
  | .local _ .vmem, ⟨1, _⟩ => ⟨S8x128x1536, .f32⟩
  | .local _ .vmem, ⟨2, _⟩ => ⟨S8x128, .f32⟩
  | .local _ .vmem, ⟨3, _⟩ => ⟨S8x128, .f32⟩
  | .local _ .vmem, ⟨4, _⟩ => ⟨S8x1280, .f32⟩
  | .local _ .vmem, ⟨5, _⟩ => ⟨S8x1280, .f32⟩
  | .local _ .vmem, ⟨6, _⟩ => ⟨S8x128x1536, .f32⟩
  | .local _ .vmem, ⟨7, _⟩ => ⟨S8x128x1536, .f32⟩
  | _, _ => ⟨S32x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_call0_v0 : Ref sig .tc := ⟨.hbm, 33, rfl⟩
abbrev main_call0_v1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_3 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_5 : Ref sig .tc := ⟨.hbm, 55, rfl⟩
abbrev main_v40 : Ref sig .tc := ⟨.hbm, 56, rfl⟩
abbrev main_v41 : Ref sig .tc := ⟨.hbm, 57, rfl⟩
abbrev main_c_6 : Ref sig .tc := ⟨.hbm, 58, rfl⟩
abbrev main_call1_v0 : Ref sig .tc := ⟨.hbm, 59, rfl⟩
abbrev main_call1_v1 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_8 : Ref sig .tc := ⟨.hbm, 81, rfl⟩
abbrev main_v61 : Ref sig .tc := ⟨.hbm, 82, rfl⟩
abbrev main_v62 : Ref sig .tc := ⟨.hbm, 83, rfl⟩
abbrev main_cst_9 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_10 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S32 : S_.BroadcastsInDim S32 (![] : Fin 0 → Fin S32.rank)
  bcast_S32_S1x32_1 : S32.BroadcastsInDim S1x32 (![1] : Fin 1 → Fin S1x32.rank)
  bcast_S_S1x32 : S_.BroadcastsInDim S1x32 (![] : Fin 0 → Fin S1x32.rank)
  bcast_S1x32_S2x32_0_1 : S1x32.BroadcastsInDim S2x32 (![0, 1] : Fin 2 → Fin S2x32.rank)
  bcast_S_S2x32 : S_.BroadcastsInDim S2x32 (![] : Fin 0 → Fin S2x32.rank)
  bcast_S2048_S1x1x2048_2 : S2048.BroadcastsInDim S1x1x2048 (![2] : Fin 1 → Fin S1x1x2048.rank)
  bcast_S2x32_S2x32x1_0_1 : S2x32.BroadcastsInDim S2x32x1 (![0, 1] : Fin 2 → Fin S2x32x1.rank)
  bcast_S1x1x2048_S2x32x2048_0_1_2 : S1x1x2048.BroadcastsInDim S2x32x2048 (![0, 1, 2] : Fin 3 → Fin S2x32x2048.rank)
  bcast_S2x32x1_S2x32x2048_0_1_2 : S2x32x1.BroadcastsInDim S2x32x2048 (![0, 1, 2] : Fin 3 → Fin S2x32x2048.rank)
  reducesTo_S2x32x2048_S32x2048_d0 : S2x32x2048.ReducesTo [0] S32x2048
  h_S_ : 0 < S_.numel
  bcast_S1280_S1x1x1280_2 : S1280.BroadcastsInDim S1x1x1280 (![2] : Fin 1 → Fin S1x1x1280.rank)
  bcast_S1x1x1280_S2x32x1280_0_1_2 : S1x1x1280.BroadcastsInDim S2x32x1280 (![0, 1, 2] : Fin 3 → Fin S2x32x1280.rank)
  bcast_S2x32x1_S2x32x1280_0_1_2 : S2x32x1.BroadcastsInDim S2x32x1280 (![0, 1, 2] : Fin 3 → Fin S2x32x1280.rank)
  reducesTo_S2x32x1280_S32x1280_d0 : S2x32x1280.ReducesTo [0] S32x1280
  bcast_S_S32x2048 : S_.BroadcastsInDim S32x2048 (![] : Fin 0 → Fin S32x2048.rank)
  bcast_S_S32x1280 : S_.BroadcastsInDim S32x1280 (![] : Fin 0 → Fin S32x1280.rank)
  inb_S8x128x1536_S8x128x256_0_0_0 : ∀ a, (![0, 0, 0] : Fin 3 → Nat) a + S8x128x256.size a ≤ S8x128x1536.size a
  h_S8x128x256 : 0 < S8x128x256.numel
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x1280_S8x1280_0_0 : ∀ a, (![0, 0] : Fin 2 → Nat) a + S8x1280.size a ≤ S8x1280.size a
  h_S8x1280 : 0 < S8x1280.numel
  shapeCasts_S8x1280_S8x1280 : S8x1280.ShapeCasts S8x1280
  inb_S8x128x1536_S8x128x1280_0_0_256 : ∀ a, (![0, 0, 256] : Fin 3 → Nat) a + S8x128x1280.size a ≤ S8x128x1536.size a
  h_S8x128x1280 : 0 < S8x128x1280.numel
  shapeCasts_S8x128_S8x128x1 : S8x128.ShapeCasts S8x128x1
  broadcasts_S8x128x1_S8x128x1280 : S8x128x1.Broadcasts S8x128x1280
  shapeCasts_S8x1280_S8x1x1280 : S8x1280.ShapeCasts S8x1x1280
  broadcasts_S8x1x1280_S8x128x1280 : S8x1x1280.Broadcasts S8x128x1280
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x1536.size a ≤ S32x2048x1536.size a
  hwx0_0 : ∀ i : grid0.Coords, EltTy.bits .f32 = 32 ∨ (Rect.block (s := S32x2048x1536) S8x128x1536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S32x2048.size a
  hwx0_1 : ∀ i : grid0.Coords, EltTy.bits .f32 = 32 ∨ (Rect.block (s := S32x2048) S8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1280.size a ≤ S32x1280.size a
  hwx0_2 : ∀ i : grid0.Coords, EltTy.bits .f32 = 32 ∨ (Rect.block (s := S32x1280) S8x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128x1536.size a ≤ S32x2048x1536.size a
  hwx0_3 : ∀ i : grid0.Coords, EltTy.bits .f32 = 32 ∨ (Rect.block (s := S32x2048x1536) S8x128x1536.size (cc0_transform_3 i) (hinb0_3 i)).WholeWords (EltTy.packing .f32)

variable [Facts₀]

abbrev win0_0 : Pipeline.Window sig grid0 :=
  Pipeline.Window.ofSpec (Memref.whole main_arg0) S8x128x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v64) S8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v67) S8x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v68) S8x128x1536.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x2048x1536 : Shape := ⟨3, ![32, 2048, 1536]⟩
abbrev S32 : Shape := ⟨1, ![32]⟩
abbrev S2x32 : Shape := ⟨2, ![2, 32]⟩
abbrev S32x2048x256 : Shape := ⟨3, ![32, 2048, 256]⟩
abbrev S32x2048x1280 : Shape := ⟨3, ![32, 2048, 1280]⟩
abbrev S_ : Shape := ⟨0, ![]⟩
abbrev S1x32 : Shape := ⟨2, ![1, 32]⟩
abbrev S2048 : Shape := ⟨1, ![2048]⟩
abbrev S1x1x2048 : Shape := ⟨3, ![1, 1, 2048]⟩
abbrev S2x32x1 : Shape := ⟨3, ![2, 32, 1]⟩
abbrev S2x32x2048 : Shape := ⟨3, ![2, 32, 2048]⟩
abbrev S32x2048 : Shape := ⟨2, ![32, 2048]⟩
abbrev S1280 : Shape := ⟨1, ![1280]⟩
abbrev S1x1x1280 : Shape := ⟨3, ![1, 1, 1280]⟩
abbrev S2x32x1280 : Shape := ⟨3, ![2, 32, 1280]⟩
abbrev S32x1280 : Shape := ⟨2, ![32, 1280]⟩
abbrev S32x2048x1 : Shape := ⟨3, ![32, 2048, 1]⟩
abbrev S32x1x1280 : Shape := ⟨3, ![32, 1, 1280]⟩

abbrev nBuf : Space → Nat
  | .hbm => 94
  | .vmem => 0
  | .smem => 0
  | _ => 0

abbrev bufTy : (tb : Table) → Fin (tcTables nBuf tb) → BufTy
  | .hbm, ⟨0, _⟩ => ⟨S32x2048x1536, .f32⟩
  | .hbm, ⟨1, _⟩ => ⟨S32, .i32⟩
  | .hbm, ⟨2, _⟩ => ⟨S2x32, .f32⟩
  | .hbm, ⟨3, _⟩ => ⟨S2x32, .f32⟩
  | .hbm, ⟨4, _⟩ => ⟨S2x32, .f32⟩
  | .hbm, ⟨5, _⟩ => ⟨S2x32, .f32⟩
  | .hbm, ⟨6, _⟩ => ⟨S32x2048x256, .f32⟩
  | .hbm, ⟨7, _⟩ => ⟨S32x2048x1280, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S1x32, .f32⟩
  | .hbm, ⟨14, _⟩ => ⟨S_, .f32⟩
  | .hbm, ⟨15, _⟩ => ⟨S1x32, .f32⟩
  | .hbm, ⟨16, _⟩ => ⟨S1x32, .f32⟩
  | .hbm, ⟨17, _⟩ => ⟨S2x32, .f32⟩
  | .hbm, ⟨18, _⟩ => ⟨S2x32, .f32⟩
  | .hbm, ⟨19, _⟩ => ⟨S2x32, .f32⟩
  | .hbm, ⟨20, _⟩ => ⟨S2x32, .i32⟩
  | .hbm, ⟨21, _⟩ => ⟨S1x32, .i32⟩
  | .hbm, ⟨22, _⟩ => ⟨S2x32, .i32⟩
  | .hbm, ⟨23, _⟩ => ⟨S2x32, .i32⟩
  | .hbm, ⟨24, _⟩ => ⟨S_, .i32⟩
  | .hbm, ⟨25, _⟩ => ⟨S2x32, .i32⟩
  | .hbm, ⟨26, _⟩ => ⟨S2x32, .i1⟩
  | .hbm, ⟨27, _⟩ => ⟨S2x32, .f32⟩
  | .hbm, ⟨28, _⟩ => ⟨S_, .f32⟩
  | .hbm, ⟨29, _⟩ => ⟨S2x32, .f32⟩
  | .hbm, ⟨30, _⟩ => ⟨S2x32, .f32⟩
  | .hbm, ⟨31, _⟩ => ⟨S2x32, .f32⟩
  | .hbm, ⟨32, _⟩ => ⟨S2x32, .f32⟩
  | .hbm, ⟨33, _⟩ => ⟨S2x32, .i32⟩
  | .hbm, ⟨34, _⟩ => ⟨S_, .i32⟩
  | .hbm, ⟨35, _⟩ => ⟨S_, .i32⟩
  | .hbm, ⟨36, _⟩ => ⟨S2x32, .i32⟩
  | .hbm, ⟨37, _⟩ => ⟨S2x32, .i32⟩
  | .hbm, ⟨38, _⟩ => ⟨S2048, .i32⟩
  | .hbm, ⟨39, _⟩ => ⟨S1x1x2048, .i32⟩
  | .hbm, ⟨40, _⟩ => ⟨S2x32x1, .i32⟩
  | .hbm, ⟨41, _⟩ => ⟨S2x32x2048, .i32⟩
  | .hbm, ⟨42, _⟩ => ⟨S2x32x2048, .i32⟩
  | .hbm, ⟨43, _⟩ => ⟨S2x32x2048, .i1⟩
  | .hbm, ⟨44, _⟩ => ⟨S2x32, .i32⟩
  | .hbm, ⟨45, _⟩ => ⟨S2x32x1, .i32⟩
  | .hbm, ⟨46, _⟩ => ⟨S2x32x2048, .i32⟩
  | .hbm, ⟨47, _⟩ => ⟨S2x32x2048, .i32⟩
  | .hbm, ⟨48, _⟩ => ⟨S2x32x2048, .i1⟩
  | .hbm, ⟨49, _⟩ => ⟨S2x32x2048, .i1⟩
  | .hbm, ⟨50, _⟩ => ⟨S_, .i1⟩
  | .hbm, ⟨51, _⟩ => ⟨S32x2048, .i1⟩
  | .hbm, ⟨52, _⟩ => ⟨S_, .f32⟩
  | .hbm, ⟨53, _⟩ => ⟨S2x32, .f32⟩
  | .hbm, ⟨54, _⟩ => ⟨S2x32, .f32⟩
  | .hbm, ⟨55, _⟩ => ⟨S2x32, .f32⟩
  | .hbm, ⟨56, _⟩ => ⟨S2x32, .i32⟩
  | .hbm, ⟨57, _⟩ => ⟨S_, .i32⟩
  | .hbm, ⟨58, _⟩ => ⟨S2x32, .i32⟩
  | .hbm, ⟨59, _⟩ => ⟨S2x32, .i32⟩
  | .hbm, ⟨60, _⟩ => ⟨S_, .i32⟩
  | .hbm, ⟨61, _⟩ => ⟨S_, .i32⟩
  | .hbm, ⟨62, _⟩ => ⟨S2x32, .i32⟩
  | .hbm, ⟨63, _⟩ => ⟨S2x32, .i32⟩
  | .hbm, ⟨64, _⟩ => ⟨S2x32, .f32⟩
  | .hbm, ⟨65, _⟩ => ⟨S_, .f32⟩
  | .hbm, ⟨66, _⟩ => ⟨S2x32, .f32⟩
  | .hbm, ⟨67, _⟩ => ⟨S2x32, .f32⟩
  | .hbm, ⟨68, _⟩ => ⟨S2x32, .f32⟩
  | .hbm, ⟨69, _⟩ => ⟨S2x32, .f32⟩
  | .hbm, ⟨70, _⟩ => ⟨S2x32, .i32⟩
  | .hbm, ⟨71, _⟩ => ⟨S1280, .i32⟩
  | .hbm, ⟨72, _⟩ => ⟨S1x1x1280, .i32⟩
  | .hbm, ⟨73, _⟩ => ⟨S2x32x1, .i32⟩
  | .hbm, ⟨74, _⟩ => ⟨S2x32x1280, .i32⟩
  | .hbm, ⟨75, _⟩ => ⟨S2x32x1280, .i32⟩
  | .hbm, ⟨76, _⟩ => ⟨S2x32x1280, .i1⟩
  | .hbm, ⟨77, _⟩ => ⟨S2x32, .i32⟩
  | .hbm, ⟨78, _⟩ => ⟨S2x32x1, .i32⟩
  | .hbm, ⟨79, _⟩ => ⟨S2x32x1280, .i32⟩
  | .hbm, ⟨80, _⟩ => ⟨S2x32x1280, .i32⟩
  | .hbm, ⟨81, _⟩ => ⟨S2x32x1280, .i1⟩
  | .hbm, ⟨82, _⟩ => ⟨S2x32x1280, .i1⟩
  | .hbm, ⟨83, _⟩ => ⟨S_, .i1⟩
  | .hbm, ⟨84, _⟩ => ⟨S32x1280, .i1⟩
  | .hbm, ⟨85, _⟩ => ⟨S32x2048x1, .i1⟩
  | .hbm, ⟨86, _⟩ => ⟨S32x1x1280, .i1⟩
  | .hbm, ⟨87, _⟩ => ⟨S32x2048x1280, .i1⟩
  | .hbm, ⟨88, _⟩ => ⟨S32x2048x1280, .i1⟩
  | .hbm, ⟨89, _⟩ => ⟨S32x2048x1280, .i1⟩
  | .hbm, ⟨90, _⟩ => ⟨S32x2048x1280, .i1⟩
  | .hbm, ⟨91, _⟩ => ⟨S32x2048x1280, .f32⟩
  | .hbm, ⟨92, _⟩ => ⟨S32x2048x1280, .f32⟩
  | .hbm, ⟨93, _⟩ => ⟨S32x2048x1536, .f32⟩
  | _, _ => ⟨S32x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_call0_v0 : Ref sig .tc := ⟨.hbm, 35, rfl⟩
abbrev main_call0_v1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_3 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_5 : Ref sig .tc := ⟨.hbm, 57, rfl⟩
abbrev main_v42 : Ref sig .tc := ⟨.hbm, 58, rfl⟩
abbrev main_v43 : Ref sig .tc := ⟨.hbm, 59, rfl⟩
abbrev main_c_6 : Ref sig .tc := ⟨.hbm, 60, rfl⟩
abbrev main_call1_v0 : Ref sig .tc := ⟨.hbm, 61, rfl⟩
abbrev main_call1_v1 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c_8 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩

abbrev nD : Nat := 1
abbrev τ : Topo := Topo.v7x

variable {F : FTy → Type} [FloatOps F]

class Facts₀ : Prop where
  slices_S32x2048x1536_S32x2048x256_0_0_0 : S32x2048x1536.Slices ![0, 0, 0] S32x2048x256
  slices_S32x2048x1536_S32x2048x1280_0_0_256 : S32x2048x1536.Slices ![0, 0, 256] S32x2048x1280
  bcast_S_S32 : S_.BroadcastsInDim S32 (![] : Fin 0 → Fin S32.rank)
  bcast_S32_S1x32_1 : S32.BroadcastsInDim S1x32 (![1] : Fin 1 → Fin S1x32.rank)
  bcast_S_S1x32 : S_.BroadcastsInDim S1x32 (![] : Fin 0 → Fin S1x32.rank)
  bcast_S1x32_S2x32_0_1 : S1x32.BroadcastsInDim S2x32 (![0, 1] : Fin 2 → Fin S2x32.rank)
  bcast_S_S2x32 : S_.BroadcastsInDim S2x32 (![] : Fin 0 → Fin S2x32.rank)
  bcast_S2048_S1x1x2048_2 : S2048.BroadcastsInDim S1x1x2048 (![2] : Fin 1 → Fin S1x1x2048.rank)
  bcast_S2x32_S2x32x1_0_1 : S2x32.BroadcastsInDim S2x32x1 (![0, 1] : Fin 2 → Fin S2x32x1.rank)
  bcast_S1x1x2048_S2x32x2048_0_1_2 : S1x1x2048.BroadcastsInDim S2x32x2048 (![0, 1, 2] : Fin 3 → Fin S2x32x2048.rank)
  bcast_S2x32x1_S2x32x2048_0_1_2 : S2x32x1.BroadcastsInDim S2x32x2048 (![0, 1, 2] : Fin 3 → Fin S2x32x2048.rank)
  reducesTo_S2x32x2048_S32x2048_d0 : S2x32x2048.ReducesTo [0] S32x2048
  h_S_ : 0 < S_.numel
  bcast_S1280_S1x1x1280_2 : S1280.BroadcastsInDim S1x1x1280 (![2] : Fin 1 → Fin S1x1x1280.rank)
  bcast_S1x1x1280_S2x32x1280_0_1_2 : S1x1x1280.BroadcastsInDim S2x32x1280 (![0, 1, 2] : Fin 3 → Fin S2x32x1280.rank)
  bcast_S2x32x1_S2x32x1280_0_1_2 : S2x32x1.BroadcastsInDim S2x32x1280 (![0, 1, 2] : Fin 3 → Fin S2x32x1280.rank)
  reducesTo_S2x32x1280_S32x1280_d0 : S2x32x1280.ReducesTo [0] S32x1280
  bcast_S32x2048_S32x2048x1_0_1 : S32x2048.BroadcastsInDim S32x2048x1 (![0, 1] : Fin 2 → Fin S32x2048x1.rank)
  bcast_S32x1280_S32x1x1280_0_2 : S32x1280.BroadcastsInDim S32x1x1280 (![0, 2] : Fin 2 → Fin S32x1x1280.rank)
  bcast_S32x2048x1_S32x2048x1280_0_1_2 : S32x2048x1.BroadcastsInDim S32x2048x1280 (![0, 1, 2] : Fin 3 → Fin S32x2048x1280.rank)
  bcast_S32x1x1280_S32x2048x1280_0_1_2 : S32x1x1280.BroadcastsInDim S32x2048x1280 (![0, 1, 2] : Fin 3 → Fin S32x2048x1280.rank)
  concatenates_S32x2048x256_S32x2048x1280_S32x2048x1536_d2 : Shape.Concatenates [S32x2048x256, S32x2048x1280] S32x2048x1536 2

variable [Facts₀]

class Facts : Prop extends Facts₀ where

variable [Facts]
-- ==== Proof.LibKeepMask.lean ====
/-
  The scalar law behind masking by two 0/1 flags, on the extended reals.  A flag is a one-bit word `p`, read as
  the real number `p.toNat` (0 or 1).  Keeping a value `x` unless a first flag is set and then unless a second
  flag is set — `(x · (1 − p)) · (1 − q)` — is keeping it unless either is set — `x · ¬(p ∨ q)` with the
  negated disjunction read as a number again.  Both sides are `x` when neither flag is set and `0` otherwise;
  on the extended reals `x · 0 = 0` and `0 · y = 0` for EVERY `x` and `y`, the infinities included, so the
  law asks nothing of `x`.
-/
import Idealize.ShloMosaic.PureOps.Ideal
import Idealize.ShloMosaic.Lib.ValueIdx

noncomputable section

namespace Cert.KeepMask

open Idealize.ShloMosaic

/-- A one-bit word is 0 or 1. -/
theorem bit_cases (p : BitVec 1) : p = 0#1 ∨ p = 1#1 := by
  by_cases h : p = 1#1
  · exact Or.inr h
  · exact Or.inl (ValueIdx.eq_zero_of_ne_one h)

/-- The single-precision word of one is the number 1. -/
theorem one_word : Ideal.ofBits .f32 0x3F800000#32 = 1 := by
  simp [Ideal.ofBits, Ideal.ieee, -EReal.coe_mul]; norm_num

/-- One less an unset flag is one. -/
theorem one_sub_unset : (1 : EReal) - (((0#1 : BitVec 1).toNat : ℝ) : EReal) = 1 := by
  show (1 : EReal) - (((0 : ℕ) : ℝ) : EReal) = 1
  rw [Nat.cast_zero, EReal.coe_zero, sub_zero]

/-- One less a set flag is zero. -/
theorem one_sub_set : (1 : EReal) - (((1#1 : BitVec 1).toNat : ℝ) : EReal) = 0 := by
  show (1 : EReal) - (((1 : ℕ) : ℝ) : EReal) = 0
  rw [Nat.cast_one, ← EReal.coe_one, ← EReal.coe_sub, sub_self, EReal.coe_zero]

/-- Keeping `x` unless `p`, then unless `q`, is keeping it unless `p` or `q`. -/
theorem keep_twice (x : EReal) (p q : BitVec 1) :
    x * ((1 : EReal) - ((p.toNat : ℝ) : EReal)) * ((1 : EReal) - ((q.toNat : ℝ) : EReal))
      = x * (((~~~(p ||| q)).toNat : ℝ) : EReal) := by
  rcases bit_cases p with rfl | rfl <;> rcases bit_cases q with rfl | rfl
  · rw [one_sub_unset, show (~~~((0#1 : BitVec 1) ||| 0#1)) = 1#1 from by decide]
    show x * 1 * 1 = x * (((1 : ℕ) : ℝ) : EReal)
    rw [Nat.cast_one, EReal.coe_one, mul_one]
  · rw [one_sub_unset, one_sub_set, show (~~~((0#1 : BitVec 1) ||| 1#1)) = 0#1 from by decide]
    show x * 1 * 0 = x * (((0 : ℕ) : ℝ) : EReal)
    rw [Nat.cast_zero, EReal.coe_zero, mul_zero, mul_zero]
  · rw [one_sub_unset, one_sub_set, show (~~~((1#1 : BitVec 1) ||| 0#1)) = 0#1 from by decide]
    show x * 0 * 1 = x * (((0 : ℕ) : ℝ) : EReal)
    rw [Nat.cast_zero, EReal.coe_zero, mul_zero, zero_mul]
  · rw [one_sub_set, show (~~~((1#1 : BitVec 1) ||| 1#1)) = 0#1 from by decide]
    show x * 0 * 0 = x * (((0 : ℕ) : ℝ) : EReal)
    rw [Nat.cast_zero, EReal.coe_zero, mul_zero, mul_zero]

end Cert.KeepMask

end
-- ==== Proof.KeepSpec.lean ====
/-
  The specification: masking the audio lanes of a [32, 2048, 1536] feature array by a time mask and a lane mask.
  A feature index is (sample b, time t, lane d).  Lanes 0 … 255 are video and pass through.  Lane 256 + r is audio
  lane r: it is kept — multiplied by one — when neither the time mask at (b, t) nor the lane mask at (b, r) is set,
  and zeroed — multiplied by zero — when either is.  The masks are arrays of one-bit words; the factor is the
  negated disjunction of the two bits read as a number.
-/
import Idealize.ShloMosaic.PureOps.Ideal
import Idealize.ShloMosaic.Lib.ValueIdx
import proofs.«166298_j40853728920174_2_alg».proof.Proof.LibKeepMask

noncomputable section

namespace Cert.KeepSpec

open Idealize.ShloMosaic Idealize.ShloMosaic.ValueIdx

/-- The feature array's shape, the time mask's and the lane mask's. -/
abbrev Feat : Shape := ⟨3, ![32, 2048, 1536]⟩
abbrev TimeMask : Shape := ⟨2, ![32, 2048]⟩
abbrev LaneMask : Shape := ⟨2, ![32, 1280]⟩

/-- The result at sample `b`, time `t`, lane `d`. -/
def keptAt (x : Feat.Idx → EReal) (tm : TimeMask.Idx → BitVec 1) (fm : LaneMask.Idx → BitVec 1)
    (b : Fin 32) (t : Fin 2048) (d : Fin 1536) : EReal :=
  if h : d.val < 256 then x (ix3 b t d)
  else x (ix3 b t d) * (((~~~(tm (ix2 b t) ||| fm (ix2 b (⟨d.val - 256, by omega⟩ : Fin 1280)))).toNat : ℝ) : EReal)

/-- The result array as a function of its index. -/
def kept (x : Feat.Idx → EReal) (tm : TimeMask.Idx → BitVec 1) (fm : LaneMask.Idx → BitVec 1) : Feat.Idx → EReal :=
  fun j => keptAt x tm fm (j 0) (j 1) (j 2)

/-- On a video lane the result is the feature. -/
theorem kept_video (x : Feat.Idx → EReal) (tm : TimeMask.Idx → BitVec 1) (fm : LaneMask.Idx → BitVec 1)
    (E : Feat.Idx) (h2 : (E 2).val < 256) : kept x tm fm E = x E := by
  obtain ⟨a, b, d, rfl⟩ : ∃ (a : Fin 32) (b : Fin 2048) (d : Fin 1536), E = ix3 a b d := ⟨E 0, E 1, E 2, eq_ix3 E⟩
  show keptAt x tm fm a b d = _
  unfold keptAt
  rw [dif_pos (show d.val < 256 from h2)]

/-- On audio lane `r` the result is the feature times the number of "neither mask is set". -/
theorem kept_audio (x : Feat.Idx → EReal) (tm : TimeMask.Idx → BitVec 1) (fm : LaneMask.Idx → BitVec 1)
    (E : Feat.Idx) (p : Fin 32) (q : Fin 2048) (r : Fin 1280)
    (h0 : (E 0).val = p.val) (h1 : (E 1).val = q.val) (h2 : (E 2).val = 256 + r.val) :
    kept x tm fm E = x E * (((~~~(tm (ix2 p q) ||| fm (ix2 p r))).toNat : ℝ) : EReal) := by
  obtain ⟨a, b, d, rfl⟩ : ∃ (a : Fin 32) (b : Fin 2048) (d : Fin 1536), E = ix3 a b d := ⟨E 0, E 1, E 2, eq_ix3 E⟩
  obtain rfl : a = p := Fin.ext h0
  obtain rfl : b = q := Fin.ext h1
  have hd : d.val = 256 + r.val := h2
  show keptAt x tm fm a b d = _
  unfold keptAt
  rw [dif_neg (show ¬ d.val < 256 from by omega)]
  exact congrArg (fun z => x (ix3 a b d) * (((~~~(tm (ix2 a b) ||| fm (ix2 a z))).toNat : ℝ) : EReal))
    (Fin.ext (show d.val - 256 = r.val from by omega))

end Cert.KeepSpec

end
-- ==== Proof.RefValue.lean ====
/-
  The reference's result is the specification.  Its last operation joins, along the lanes, the first 256 lanes of
  the features with the remaining 1280 lanes times a keep factor.  Read at (b, t, d): for d < 256 it is the first
  piece at (b, t, d), the feature itself; for d ≥ 256 it is the second piece at (b, t, d − 256), the feature at lane
  256 + (d − 256) = d times the number of ¬(time mask at (b, t) ∨ lane mask at (b, d − 256)) — the two masks having
  been given a unit axis and repeated to [32, 2048, 1280], which reads them back at those coordinates.
-/
import proofs.«166298_j40853728920174_2_alg».proof.Proof.RefReadPatched
import proofs.«166298_j40853728920174_2_alg».proof.Proof.KeepSpec
import Idealize.ShloMosaic.Lib.Pipeline.Value
import Idealize.ShloMosaic.Lib.ValueIdx

set_option maxRecDepth 16384

noncomputable section

namespace Cert.ReferenceIdeal.RefValue

open Cert.ReferenceIdeal Cert.ReferenceIdeal.Gen Cert.ReferenceIdeal.ReadP Idealize.ShloMosaic Idealize.ShloMosaic.TcCoe
open Idealize.ShloMosaic.ValueIdx Cert.KeepSpec

/-- The reference's result array, as a function of the six arguments, is the specification over the reference's own
    time-mask and lane-mask stages. -/
theorem result_eq (x0 : (⟨S32x2048x1536, .f32⟩ : BufTy).Contents (Elt Ideal)) (x1 : (⟨S32, .i32⟩ : BufTy).Contents (Elt Ideal))
    (x2 x3 x4 x5 : (⟨S2x32, .f32⟩ : BufTy).Contents (Elt Ideal)) :
    val_main_v72 (F := Ideal) x0 x1 x2 x3 x4 x5
      = kept x0 (val_main_v37 (F := Ideal) x1 x2 x3) (val_main_v63 (F := Ideal) x4 x5) := by
  funext E
  have hE2 : (E 2).val < 1536 := (E 2).isLt
  unfold val_main_v72
  by_cases h : (E 2).val < 256
  · rw [kept_video _ _ _ E h]
    refine (concatenate_pair_apply_left (t := S32x2048x1536) (s₁ := S32x2048x256) (s₂ := S32x2048x1280) (2 : Fin 3)
      (val_main_v0 (F := Ideal) x0) (val_main_v71 (F := Ideal) x0 x1 x2 x3 x4 x5) concatenates_S32x2048x256_S32x2048x1280_S32x2048x1536_d2 E rfl
      (ix3 (E 0) (E 1) (⟨(E 2).val, h⟩ : Fin 256)) (fun b => match b with | ⟨0, _⟩ => rfl | ⟨1, _⟩ => rfl | ⟨2, _⟩ => rfl)).trans ?_
    rw [val_main_v0_apply]
    exact congrArg x0 (funext fun a => Fin.ext (match a with | ⟨0, _⟩ => rfl | ⟨1, _⟩ => rfl | ⟨2, _⟩ => rfl))
  · have hr : (E 2).val - 256 < 1280 := by omega
    rw [kept_audio _ _ _ E (E 0) (E 1) (⟨(E 2).val - 256, hr⟩ : Fin 1280) rfl rfl (by show (E 2).val = 256 + ((E 2).val - 256); omega)]
    refine (concatenate_pair_apply_right (t := S32x2048x1536) (s₁ := S32x2048x256) (s₂ := S32x2048x1280) (2 : Fin 3)
      (val_main_v0 (F := Ideal) x0) (val_main_v71 (F := Ideal) x0 x1 x2 x3 x4 x5) concatenates_S32x2048x256_S32x2048x1280_S32x2048x1536_d2 E rfl rfl
      (ix3 (E 0) (E 1) (⟨(E 2).val - 256, hr⟩ : Fin 1280))
      (fun b hb => match b, hb with | ⟨0, _⟩, _ => rfl | ⟨1, _⟩, _ => rfl | ⟨2, _⟩, hb => absurd rfl hb)
      (by show (E 2).val - 256 + 256 = (E 2).val; omega)).trans ?_
    rw [val_main_v71_apply, val_main_v70_apply, val_main_v69_apply, val_main_v68_apply, val_main_v66_apply, val_main_v64_apply,
      val_main_v67_apply, val_main_v65_apply, val_main_v1_apply]
    have e1 : idx_main_v1 (ix3 (E 0) (E 1) (⟨(E 2).val - 256, hr⟩ : Fin 1280)) = E :=
      funext fun a => Fin.ext (match a with
        | ⟨0, _⟩ => rfl
        | ⟨1, _⟩ => rfl
        | ⟨2, _⟩ => by show 256 + ((E 2).val - 256) = (E 2).val; omega)
    have e2 : idx_main_v64 (idx_main_v66 (ix3 (E 0) (E 1) (⟨(E 2).val - 256, hr⟩ : Fin 1280))) = ix2 (E 0) (E 1) :=
      funext fun a => Fin.ext (match a with | ⟨0, _⟩ => rfl | ⟨1, _⟩ => rfl)
    have e3 : idx_main_v65 (idx_main_v67 (ix3 (E 0) (E 1) (⟨(E 2).val - 256, hr⟩ : Fin 1280))) = ix2 (E 0) (⟨(E 2).val - 256, hr⟩ : Fin 1280) :=
      funext fun a => Fin.ext (match a with | ⟨0, _⟩ => rfl | ⟨1, _⟩ => rfl)
    rw [e1, e2, e3]
    rfl

end Cert.ReferenceIdeal.RefValue

end
-- ==== Proof.LibUnitAxes.lean ====
/-
  Reading, at an index given by its coordinates, the layout operations that add a unit axis to a matrix and
  then repeat the matrix along that axis.  For a matrix `x` of shape [a, b]:
  reshaped to [a, b, 1] and read at (p, q, u) it is `x (p, q)`; reshaped to [a, 1, b] and read at (p, u, r) it is
  `x (p, r)` — both because a unit axis contributes nothing to the row-major position.  An [a, b, 1] array
  broadcast to [a, b, c] and read at (p, q, r) is the operand at (p, q, 0); an [a, 1, c] array broadcast to
  [a, b, c] and read at (p, q, r) is the operand at (p, 0, r) — a broadcast reads the operand at coordinate 0 on
  each of the operand's unit axes and at the result's own coordinate elsewhere.
-/
import Idealize.ShloMosaic.Lib.Pipeline.Value
import Idealize.ShloMosaic.Lib.ValueIdx

noncomputable section

namespace Cert.UnitAxes

open Idealize.ShloMosaic Idealize.ShloMosaic.ValueIdx

variable {α : Type}

/-- A matrix reshaped to have a trailing unit axis, read at (p, q, u): the matrix at (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- A matrix reshaped to have a middle unit axis, read at (p, u, r): the matrix at (p, r). -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-- An [a, b, 1] array repeated along its last axis, read at (p, q, r): the operand at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · omega
    · rfl
  | ⟨1, _⟩ =>
    show q.val = if b = 1 then 0 else q.val
    split
    · omega
    · rfl
  | ⟨2, _⟩ => rfl

/-- An [a, 1, c] array repeated along its middle axis, read at (p, q, r): the operand at (p, 0, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · omega
    · rfl
  | ⟨1, _⟩ => rfl
  | ⟨2, _⟩ =>
    show r.val = if c = 1 then 0 else r.val
    split
    · omega
    · rfl

end Cert.UnitAxes

end
-- ==== Proof.KernelBlock.lean ====
/-
  What one grid step leaves in its output block, as one function of the three input blocks.
  The block is [8, 128, 1536]: 8 samples, 128 time steps, 1536 feature lanes.  Lanes 0 … 255 (video) are the
  input block's lanes, copied.  Lane 256 + r (audio lane r) of sample p at time q is
  `(x (p, q, 256 + r) · kt (p, q)) · kf (p, r)`: the input scaled by the time factor of (sample, time) and then by
  the frequency factor of (sample, audio lane).  The body writes the block with two stores — the audio lanes, then
  the video lanes — whose rectangles tile it, so the block is the one function below whichever store a lane came from.
-/
import proofs.«166298_j40853728920174_2_alg».proof.Proof.Gen.KernelIdeal.Frame
import proofs.«166298_j40853728920174_2_alg».proof.Proof.LibUnitAxes
import Idealize.ShloMosaic.Lib.Pipeline.Value
import Idealize.ShloMosaic.Lib.ValueIdx

set_option maxRecDepth 16384

noncomputable section

namespace Cert.KernelIdeal.Block

open Cert.KernelIdeal Cert.KernelIdeal.Gen Idealize.ShloMosaic Idealize.ShloMosaic.TcCoe Idealize.ShloMosaic.Tactic
open Idealize.ShloMosaic.ValueIdx Idealize.SL.Sem

variable {F : FTy → Type} [FloatOps F]

/-- The block at sample `p`, time `q`, lane `r`: the input there on a video lane; on an audio lane the input
    scaled by the time factor at (p, q), then by the frequency factor at (p, r − 256). -/
def blockAt (x0 : Vec F S8x128x1536 .f32) (x1 : Vec F S8x128 .f32) (x2 : Vec F S8x1280 .f32)
    (p : Fin 8) (q : Fin 128) (r : Fin 1536) : Elt F .f32 :=
  if h : r.val < 256 then x0 (ix3 p q r)
  else FloatOps.mulf (FloatOps.mulf (x0 (ix3 p q r)) (x1 (ix2 p q))) (x2 (ix2 p (⟨r.val - 256, by omega⟩ : Fin 1280)))

/-- The block as a function of its index. -/
def block (x0 : Vec F S8x128x1536 .f32) (x1 : Vec F S8x128 .f32) (x2 : Vec F S8x1280 .f32) :
    S8x128x1536.Idx → Elt F .f32 := fun y => blockAt x0 x1 x2 (y 0) (y 1) (y 2)

/-- The audio store's value at (p, q, r): the loaded audio lanes scaled by the time factor, repeated along the
    lanes, then by the frequency factor, repeated along the time steps. -/
theorem pay_apply (v2 : Vec F S8x128 .f32) (v4 : Vec F S8x1280 .f32) (v6 : Vec F S8x128x1280 .f32)
    (p : Fin 8) (q : Fin 128) (r : Fin 1280) :
    k0_pay1 v2 v4 v6 (ix3 p q r) = FloatOps.mulf (FloatOps.mulf (v6 (ix3 p q r)) (v2 (ix2 p q))) (v4 (ix2 p r)) := by
  unfold k0_pay1
  show FloatOps.mulf (FloatOps.mulf (v6 (ix3 p q r)) (broadcastTo S8x128x1280 _ _ (ix3 p q r))) (broadcastTo S8x128x1280 _ _ (ix3 p q r)) = _
  rw [Cert.UnitAxes.broadcastTo_ab1_abc_apply, Cert.UnitAxes.shapeCast_ab_ab1_apply, shapeCast_self,
    Cert.UnitAxes.broadcastTo_a1c_abc_apply, Cert.UnitAxes.shapeCast_ac_a1c_apply, shapeCast_self]

/-- On a video lane the block is the input there. -/
theorem block_video (x0 : Vec F S8x128x1536 .f32) (x1 : Vec F S8x128 .f32) (x2 : Vec F S8x1280 .f32)
    (e : S8x128x1536.Idx) (h2 : (e 2).val < 256) : block x0 x1 x2 e = x0 e := by
  obtain ⟨a, b, d, rfl⟩ : ∃ (a : Fin 8) (b : Fin 128) (d : Fin 1536), e = ix3 a b d := ⟨e 0, e 1, e 2, eq_ix3 e⟩
  show blockAt x0 x1 x2 a b d = _
  unfold blockAt
  rw [dif_pos (show d.val < 256 from h2)]

/-- On audio lane `r` (lane 256 + r of the block) at sample `p`, time `q`, the block is the input there scaled by
    the time factor at (p, q) and the frequency factor at (p, r). -/
theorem block_audio (x0 : Vec F S8x128x1536 .f32) (x1 : Vec F S8x128 .f32) (x2 : Vec F S8x1280 .f32)
    (e : S8x128x1536.Idx) (p : Fin 8) (q : Fin 128) (r : Fin 1280)
    (h0 : (e 0).val = p.val) (h1 : (e 1).val = q.val) (h2 : (e 2).val = 256 + r.val) :
    block x0 x1 x2 e = FloatOps.mulf (FloatOps.mulf (x0 e) (x1 (ix2 p q))) (x2 (ix2 p r)) := by
  obtain ⟨a, b, d, rfl⟩ : ∃ (a : Fin 8) (b : Fin 128) (d : Fin 1536), e = ix3 a b d := ⟨e 0, e 1, e 2, eq_ix3 e⟩
  obtain rfl : a = p := Fin.ext h0
  obtain rfl : b = q := Fin.ext h1
  have hd : d.val = 256 + r.val := h2
  show blockAt x0 x1 x2 a b d = _
  unfold blockAt
  rw [dif_neg (show ¬ d.val < 256 from by omega)]
  exact congrArg (fun z => FloatOps.mulf (FloatOps.mulf (x0 (ix3 a b d)) (x1 (ix2 a b))) (x2 (ix2 a z)))
    (Fin.ext (show d.val - 256 = r.val from by omega))

/-- The video store's value, the input's first 256 lanes, is the block on the lanes it writes. -/
theorem video_piece (x0 : Vec F S8x128x1536 .f32) (x1 : Vec F S8x128 .f32) (x2 : Vec F S8x1280 .f32)
    (x : (⟨3, ![8, 128, 256]⟩ : Shape).Idx) :
    View.ld x0 (Rect.unit (s := S8x128x1536) ![0, 0, 0] S8x128x256.size inb_S8x128x1536_S8x128x256_0_0_0) x
      = block x0 x1 x2 ((Rect.unit (s := S8x128x1536) ![0, 0, 0] S8x128x256.size inb_S8x128x1536_S8x128x256_0_0_0).emb x) := by
  refine (block_video x0 x1 x2 _ ?_).symm
  show 0 + 1 * (x 2).val < 256
  have : (x 2).val < 256 := (x 2).isLt
  omega

/-- The audio store's value is the block on the lanes it writes, 256 onwards. -/
theorem audio_piece (x0 : Vec F S8x128x1536 .f32) (x1 : Vec F S8x128 .f32) (x2 : Vec F S8x1280 .f32)
    (x : (⟨3, ![8, 128, 1280]⟩ : Shape).Idx) :
    k0_pay1 x1 x2 (View.ld x0 (Rect.unit (s := S8x128x1536) ![0, 0, 256] S8x128x1280.size inb_S8x128x1536_S8x128x1280_0_0_256)) x
      = block x0 x1 x2 ((Rect.unit (s := S8x128x1536) ![0, 0, 256] S8x128x1280.size inb_S8x128x1536_S8x128x1280_0_0_256).emb x) := by
  obtain ⟨p, q, r, rfl⟩ : ∃ (p : Fin 8) (q : Fin 128) (r : Fin 1280), x = ix3 p q r := ⟨x 0, x 1, x 2, eq_ix3 x⟩
  rw [pay_apply]
  refine (block_audio x0 x1 x2 _ p q r ?_ ?_ ?_).symm
  · show 0 + 1 * p.val = p.val
    omega
  · show 0 + 1 * q.val = q.val
    omega
  · show 256 + 1 * r.val = 256 + r.val
    omega

theorem zeros3 : (![0, 0, 0] : Fin 3 → Nat) = fun _ => 0 := funext fun a => by fin_cases a <;> rfl
theorem zeros2 : (![0, 0] : Fin 2 → Nat) = fun _ => 0 := funext fun a => by fin_cases a <;> rfl

/-- What the body leaves in the output block is `block` of the three input blocks. -/
theorem out_eq (c : Dev nD) (i : grid0.Coords) (arg2 : Memref sig .tc .vmem S8x128x1536 .f32) (harg2 : arg2.IsWhole) (arg3 : Memref sig .tc .vmem S8x128 .f32) (harg3 : arg3.IsWhole) (arg4 : Memref sig .tc .vmem S8x1280 .f32) (harg4 : arg4.IsWhole) (arg5 : Memref sig .tc .vmem S8x128x1536 .f32) (harg5 : arg5.IsWhole)
    (x0 : Vec F S8x128x1536 .f32) (x1 : Vec F S8x128 .f32) (x2 : Vec F S8x1280 .f32) :
    out0_A_3 c i arg2 harg2 arg3 harg3 arg4 harg4 arg5 harg5 x0 x1 x2 = block x0 x1 x2 := by
  funext y
  unfold out0_A_3
  rw [View.read_writes_eq_canon _ _ _ (cover0_A_3 c i arg2 harg2 arg3 harg3 arg4 harg4 arg5 harg5 x0 x1 x2)]
  refine View.canon_apply_of_pieces (block x0 x1 x2) _ ?_ y (cover0_A_3 c i arg2 harg2 arg3 harg3 arg4 harg4 arg5 harg5 x0 x1 x2 y)
  unfold kernelRun0_A
  dsimp only
  simp only [View.readAt_eq_ld, harg2.read_unread, harg3.read_unread, harg4.read_unread,
    View.ld_unit_zero (S := S8x128) zeros2, View.ld_unit_zero (S := S8x1280) zeros2]
  intro pc hpc x
  simp only [List.mem_cons, List.not_mem_nil, or_false] at hpc
  rcases hpc with rfl | rfl
  · exact audio_piece x0 x1 x2 x
  · exact video_piece x0 x1 x2 x

end Cert.KernelIdeal.Block

end
-- ==== Proof.KernelFinal.lean ====
/-
  From blocks to the array.  The grid is 4 × 16: point (i, j) owns samples 8i … 8i+7 and time steps
  128j … 128j+127, all 1536 lanes.  Its input block of the features is the same box of the feature array; its block
  of the time factors is rows 8i …, columns 128j … of the [32, 2048] factor array; its block of the frequency
  factors is rows 8i … and ALL 1280 columns of the [32, 1280] factor array (the same at every j).  So what the
  point writes back is the box of ONE whole-array function: the feature on a video lane, and on audio lane r the
  feature scaled by the time factor of its (sample, time) and the frequency factor of its (sample, r).  The 64 boxes
  tile the output array — index (b, t, d) lies in the box of point (b / 8, t / 128) — so after the run the output
  array is that function.
-/
import proofs.«166298_j40853728920174_2_alg».proof.Proof.Gen.KernelIdeal.Value
import proofs.«166298_j40853728920174_2_alg».proof.Proof.KernelBlock
import Idealize.ShloMosaic.Lib.Pipeline.Value
import Idealize.ShloMosaic.Lib.ValueIdx

set_option maxRecDepth 16384

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

/-- The output at sample `b`, time `t`, lane `d`, from the features and the two factor arrays. -/
def wholeAt (x : S32x2048x1536.Idx → Elt F .f32) (kt : S32x2048.Idx → Elt F .f32) (kf : S32x1280.Idx → Elt F .f32)
    (b : Fin 32) (t : Fin 2048) (d : Fin 1536) : Elt F .f32 :=
  if h : d.val < 256 then x (ix3 b t d)
  else FloatOps.mulf (FloatOps.mulf (x (ix3 b t d)) (kt (ix2 b t))) (kf (ix2 b (⟨d.val - 256, by omega⟩ : Fin 1280)))

/-- The output array as a function of its index. -/
def whole (x : S32x2048x1536.Idx → Elt F .f32) (kt : S32x2048.Idx → Elt F .f32) (kf : S32x1280.Idx → Elt F .f32) :
    S32x2048x1536.Idx → Elt F .f32 := fun j => wholeAt x kt kf (j 0) (j 1) (j 2)

theorem whole_video (x : S32x2048x1536.Idx → Elt F .f32) (kt : S32x2048.Idx → Elt F .f32) (kf : S32x1280.Idx → Elt F .f32)
    (E : S32x2048x1536.Idx) (h2 : (E 2).val < 256) : whole x kt kf E = x E := by
  obtain ⟨a, b, d, rfl⟩ : ∃ (a : Fin 32) (b : Fin 2048) (d : Fin 1536), E = ix3 a b d := ⟨E 0, E 1, E 2, eq_ix3 E⟩
  show wholeAt x kt kf a b d = _
  unfold wholeAt
  rw [dif_pos (show d.val < 256 from h2)]

theorem whole_audio (x : S32x2048x1536.Idx → Elt F .f32) (kt : S32x2048.Idx → Elt F .f32) (kf : S32x1280.Idx → Elt F .f32)
    (E : S32x2048x1536.Idx) (p : Fin 32) (q : Fin 2048) (r : Fin 1280)
    (h0 : (E 0).val = p.val) (h1 : (E 1).val = q.val) (h2 : (E 2).val = 256 + r.val) :
    whole x kt kf E = FloatOps.mulf (FloatOps.mulf (x E) (kt (ix2 p q))) (kf (ix2 p r)) := by
  obtain ⟨a, b, d, rfl⟩ : ∃ (a : Fin 32) (b : Fin 2048) (d : Fin 1536), E = ix3 a b d := ⟨E 0, E 1, E 2, eq_ix3 E⟩
  obtain rfl : a = p := Fin.ext h0
  obtain rfl : b = q := Fin.ext h1
  have hd : d.val = 256 + r.val := h2
  show wholeAt x kt kf a b d = _
  unfold wholeAt
  rw [dif_neg (show ¬ d.val < 256 from by omega)]
  exact congrArg (fun z => FloatOps.mulf (FloatOps.mulf (x (ix3 a b d)) (kt (ix2 a b))) (kf (ix2 a z)))
    (Fin.ext (show d.val - 256 = r.val from by omega))

/-- One element of a point's block is the whole-array function at the element's place in the array, given that
    the three input blocks are the boxes of the three arrays at the matching places. -/
theorem point_eq (x : S32x2048x1536.Idx → Elt F .f32) (kt : S32x2048.Idx → Elt F .f32) (kf : S32x1280.Idx → Elt F .f32)
    (X0 : Vec F S8x128x1536 .f32) (X1 : Vec F S8x128 .f32) (X2 : Vec F S8x1280 .f32)
    (j : S8x128x1536.Idx) (E : S32x2048x1536.Idx)
    (hx : X0 j = x E) (hE2 : (E 2).val = (j 2).val)
    (hkt : X1 (ix2 (j 0) (j 1)) = kt (ix2 (E 0) (E 1)))
    (hkf : ∀ r : Fin 1280, X2 (ix2 (j 0) r) = kf (ix2 (E 0) r)) :
    Block.block X0 X1 X2 j = whole x kt kf E := by
  have hj2 : (j 2).val < 1536 := (j 2).isLt
  by_cases h : (j 2).val < 256
  · rw [Block.block_video X0 X1 X2 j h, whole_video x kt kf E (by omega), hx]
  · have hr : (j 2).val = 256 + ((j 2).val - 256) := by omega
    rw [Block.block_audio X0 X1 X2 j (j 0) (j 1) (⟨(j 2).val - 256, by omega⟩ : Fin 1280) rfl rfl hr,
      whole_audio x kt kf E (E 0) (E 1) (⟨(j 2).val - 256, by omega⟩ : Fin 1280) rfl rfl (by show (E 2).val = 256 + ((j 2).val - 256); omega),
      hx, hkt, hkf]

variable (m : (ℓ : Loc nD τ sig) → Buf (Elt F) ℓ) (ρ : Dev nD → PrngReg)

/-- The printed index maps over the 64 grid points: the feature window and the time-factor window move with the
    output window, the frequency-factor window with its sample axis only, and no map moves along the lanes. -/
theorem idx_facts : ∀ t : Fin cfg0.N, win0_0.index t (0 : Fin 3) = win0_3.index t (0 : Fin 3)
    ∧ win0_0.index t (1 : Fin 3) = win0_3.index t (1 : Fin 3)
    ∧ win0_0.index t (2 : Fin 3) = 0
    ∧ win0_3.index t (2 : Fin 3) = 0
    ∧ win0_1.index t (0 : Fin 2) = win0_3.index t (0 : Fin 3)
    ∧ win0_1.index t (1 : Fin 2) = win0_3.index t (1 : Fin 3)
    ∧ win0_2.index t (0 : Fin 2) = win0_3.index t (0 : Fin 3)
    ∧ win0_2.index t (1 : Fin 2) = 0
    ∧ win0_3.index t (0 : Fin 3) ≤ 3
    ∧ win0_3.index t (1 : Fin 3) ≤ 15 :=
  (by decide +kernel : ∀ t : Fin grid0.N, _)

/-- Every (sample block, time block) pair is some point's. -/
theorem idx_onto : ∀ (q0 : Fin 4) (q1 : Fin 16), ∃ t : Fin cfg0.N, win0_3.index t = ![q0.val, q1.val, 0] :=
  (by decide +kernel : ∀ (q0 : Fin 4) (q1 : Fin 16), ∃ t : Fin grid0.N, win0_3.index t = ![q0.val, q1.val, 0])

/-- The feature block at point `t` is the output box's place in the feature array. -/
theorem feat_blk (c : Dev nD) (t : Fin cfg0.N) (j : S8x128x1536.Idx) :
    iblk m c 0 t j = V m c main_arg0 (((cfg0.win 3).blk t).view.emb j) := by
  obtain ⟨f00, f01, f02, f32, f10, f11, f20, f21, b0, b1⟩ := idx_facts t
  show V m c main_arg0 (((cfg0.win 0).blk t).view.emb j) = V m c main_arg0 (((cfg0.win 3).blk t).view.emb j)
  refine congrArg _ (funext fun a => Fin.ext ?_)
  match a with
  | ⟨0, _⟩ => show win0_0.index t (0 : Fin 3) * 8 + 1 * (j 0).val = win0_3.index t (0 : Fin 3) * 8 + 1 * (j 0).val; omega
  | ⟨1, _⟩ => show win0_0.index t (1 : Fin 3) * 128 + 1 * (j 1).val = win0_3.index t (1 : Fin 3) * 128 + 1 * (j 1).val; omega
  | ⟨2, _⟩ => show win0_0.index t (2 : Fin 3) * 1536 + 1 * (j 2).val = win0_3.index t (2 : Fin 3) * 1536 + 1 * (j 2).val; omega

/-- The output box does not move along the lanes. -/
theorem lane_blk (t : Fin cfg0.N) (j : S8x128x1536.Idx) :
    ((((cfg0.win 3).blk t).view.emb j) 2).val = (j 2).val := by
  obtain ⟨f00, f01, f02, f32, f10, f11, f20, f21, b0, b1⟩ := idx_facts t
  show win0_3.index t (2 : Fin 3) * 1536 + 1 * (j 2).val = (j 2).val
  omega

/-- The time-factor block at point `t`, at a (sample, time) of the block, is the time-factor array at the
    sample and time the output box puts them at. -/
theorem kt_blk (c : Dev nD) (t : Fin cfg0.N) (j : S8x128x1536.Idx) :
    iblk m c 1 t (ix2 (j 0) (j 1))
      = V m c main_v64 (ix2 ((((cfg0.win 3).blk t).view.emb j) 0) ((((cfg0.win 3).blk t).view.emb j) 1)) := by
  obtain ⟨f00, f01, f02, f32, f10, f11, f20, f21, b0, b1⟩ := idx_facts t
  show V m c main_v64 (((cfg0.win 1).blk t).view.emb (ix2 (j 0) (j 1))) = _
  refine congrArg _ (funext fun a => Fin.ext ?_)
  match a with
  | ⟨0, _⟩ => show win0_1.index t (0 : Fin 2) * 8 + 1 * (j 0).val = win0_3.index t (0 : Fin 3) * 8 + 1 * (j 0).val; omega
  | ⟨1, _⟩ => show win0_1.index t (1 : Fin 2) * 128 + 1 * (j 1).val = win0_3.index t (1 : Fin 3) * 128 + 1 * (j 1).val; omega

/-- The frequency-factor block at point `t`, at a sample of the block and audio lane `r`, is the
    frequency-factor array at the sample the output box puts it at, and lane `r`. -/
theorem kf_blk (c : Dev nD) (t : Fin cfg0.N) (j : S8x128x1536.Idx) (r : Fin 1280) :
    iblk m c 2 t (ix2 (j 0) r) = V m c main_v67 (ix2 ((((cfg0.win 3).blk t).view.emb j) 0) r) := by
  obtain ⟨f00, f01, f02, f32, f10, f11, f20, f21, b0, b1⟩ := idx_facts t
  show V m c main_v67 (((cfg0.win 2).blk t).view.emb (ix2 (j 0) r)) = _
  refine congrArg _ (funext fun a => Fin.ext ?_)
  match a with
  | ⟨0, _⟩ => show win0_2.index t (0 : Fin 2) * 8 + 1 * (j 0).val = win0_3.index t (0 : Fin 3) * 8 + 1 * (j 0).val; omega
  | ⟨1, _⟩ => show win0_2.index t (1 : Fin 2) * 1280 + 1 * r.val = r.val; omega

/-- What point `t` writes back is its box of the whole-array function of the arrays as the region finds them. -/
theorem flushed_eq (c : Dev nD) (t : Fin cfg0.N) :
    (dats m 0 c).flushed 3 t = ((cfg0.win 3).blk t).view.read (Elt F) (whole (V m c main_arg0) (V m c main_v64) (V m c main_v67)) := by
  rw [Cert.KernelIdeal.Value.flushed3_A]
  refine (congrArg ((cfg0.win 3).cut (grid0.coords t)) (Block.out_eq c (grid0.coords t) (ms0_0 t) (hs0_0 t) (ms0_1 t) (hs0_1 t) (ms0_2 t) (hs0_2 t) (ms0_3 t) (hs0_3 t) (iblk m c 0 t) (iblk m c 1 t) (iblk m c 2 t))).trans ?_
  funext j
  show Block.block (iblk m c 0 t) (iblk m c 1 t) (iblk m c 2 t) j = whole (V m c main_arg0) (V m c main_v64) (V m c main_v67) (((cfg0.win 3).blk t).view.emb j)
  exact point_eq (V m c main_arg0) (V m c main_v64) (V m c main_v67) (iblk m c 0 t) (iblk m c 1 t) (iblk m c 2 t) j (((cfg0.win 3).blk t).view.emb j)
    (feat_blk m c t j) (lane_blk t j) (kt_blk m c t j) (kf_blk m c t j)

/-- An index of the output array is in point `t`'s box iff each coordinate is in the box's range on its axis. -/
theorem mem_blk (t : Fin cfg0.N) (i : S32x2048x1536.Idx) :
    i ∈ ((cfg0.win 3).blk t).view.set ↔ ∀ a : Fin 3, win0_3.index t a * S8x128x1536.size a ≤ (i a).val ∧ (i a).val < win0_3.index t a * S8x128x1536.size a + S8x128x1536.size a := by
  show i ∈ ((View.whole main_v68).slice (win0_3.rect t)).set ↔ _
  rw [View.set_slice_whole, Rect.mem_set_unit]
  exact Iff.rfl

/-- Every index of the output array is in the box of the point that owns its sample block and time block. -/
theorem cover (i : S32x2048x1536.Idx) : ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 1536 := (i 2).isLt
  obtain ⟨t, ht⟩ := idx_onto ⟨(i 0).val / 8, by omega⟩ ⟨(i 1).val / 128, by omega⟩
  have q0 : win0_3.index t (0 : Fin 3) = (i 0).val / 8 := congrFun ht 0
  have q1 : win0_3.index t (1 : Fin 3) = (i 1).val / 128 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 8 ≤ (i 0).val ∧ (i 0).val < win0_3.index t (0 : Fin 3) * 8 + 8; omega
  | ⟨1, _⟩ => show win0_3.index t (1 : Fin 3) * 128 ≤ (i 1).val ∧ (i 1).val < win0_3.index t (1 : Fin 3) * 128 + 128; omega
  | ⟨2, _⟩ => show win0_3.index t (2 : Fin 3) * 1536 ≤ (i 2).val ∧ (i 2).val < win0_3.index t (2 : Fin 3) * 1536 + 1536; omega

/-- The output array after the run. -/
theorem final (c : Dev nD) :
    (dats m 0 c).arrAt 3 cfg0.N = whole (V m c main_arg0) (V m c main_v64) (V m c main_v67) :=
  (dats m 0 c).arrAt_eq_of_cover 3 (whole (V m c main_arg0) (V m c main_v64) (V m c main_v67)) (fun t _ => flushed_eq m c t) cover

end Cert.KernelIdeal.Final

end
-- ==== Proof.HostMasks.lean ====
/-
  The two factor arrays the kernel's region is launched with.  Before the region the program computes, from the
  lengths and the four uniform draws, a time mask [32, 2048] and a lane mask [32, 1280] of one-bit words — by the
  very operations, in the very order, by which the reference computes its own two masks — and hands the region
  `1 − (time mask as a number)` and `1 − (lane mask as a number)`.  So each factor array is one minus the
  reference's mask stage of the same arguments: the two chains of operations are the same term.
-/
import proofs.«166298_j40853728920174_2_alg».proof.Proof.Gen.KernelIdeal.Frame
import proofs.«166298_j40853728920174_2_alg».proof.Proof.RefReadPatched
import Idealize.ShloMosaic.Lib.StableHlo.Run
import Idealize.ShloMosaic.PureOps.Ideal

set_option maxRecDepth 16384

noncomputable section

namespace Cert.KernelIdeal.HostMasks

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxHeartbeats 4000000 in
/-- The time-factor array: one minus the time mask. -/
theorem time_factor (c : Dev nD) :
    (V m c main_v64 : S32x2048.Idx → EReal)
      = subf (broadcastInDim S32x2048 ![] bcast_S_S32x2048 (constant (F := Ideal) S_ .f32 0x3F800000#32))
          (uitofp .f32 (Cert.ReferenceIdeal.ReadP.val_main_v37 (F := Ideal)
            (m ((c : Thread nD τ).loc main_arg1)) (m ((c : Thread nD τ).loc main_arg2)) (m ((c : Thread nD τ).loc main_arg3)))) := by
  dsimp only [V]
  simp only [hostOps0, hostOps0_1, hostOps0_2, hostOps0_3, hostOps0_4, List.flatten_cons, List.flatten_nil, List.append_nil,
    List.cons_append, List.nil_append]
  after_results_simp
  rfl

set_option maxHeartbeats 4000000 in
/-- The frequency-factor array: one minus the lane mask. -/
theorem lane_factor (c : Dev nD) :
    (V m c main_v67 : S32x1280.Idx → EReal)
      = subf (broadcastInDim S32x1280 ![] bcast_S_S32x1280 (constant (F := Ideal) S_ .f32 0x3F800000#32))
          (uitofp .f32 (Cert.ReferenceIdeal.ReadP.val_main_v63 (F := Ideal)
            (m ((c : Thread nD τ).loc main_arg4)) (m ((c : Thread nD τ).loc main_arg5)))) := by
  dsimp only [V]
  simp only [hostOps0, hostOps0_1, hostOps0_2, hostOps0_3, hostOps0_4, List.flatten_cons, List.flatten_nil, List.append_nil,
    List.cons_append, List.nil_append]
  after_results_simp
  rfl

end Cert.KernelIdeal.HostMasks

end
-- ==== Proof.KernelResult.lean ====
/-
  The kernel's result is the specification.  After the run the output array is the feature on a video lane and, on
  audio lane r, `(x · kt (b, t)) · kf (b, r)` with the two factor arrays the region was launched with.  Those
  are `1 − tm` and `1 − fm`, the masks read as numbers, so by the masking law — keeping a value unless a first
  flag is set and then unless a second is set is keeping it unless either is set — the product is
  `x · ¬(tm ∨ fm)`, the specification's factor.  The law holds for every extended real `x`, so the finiteness of
  the inputs is not used.
-/
import proofs.«166298_j40853728920174_2_alg».proof.Proof.Gen.KernelIdeal.Value
import proofs.«166298_j40853728920174_2_alg».proof.Proof.KernelFinal
import proofs.«166298_j40853728920174_2_alg».proof.Proof.HostMasks
import proofs.«166298_j40853728920174_2_alg».proof.Proof.KeepSpec
import proofs.«166298_j40853728920174_2_alg».proof.Proof.LibKeepMask

set_option maxRecDepth 16384

noncomputable section

namespace Cert.KernelIdeal.Result

open Cert.KernelIdeal Cert.KernelIdeal.Gen Idealize.ShloMosaic Idealize.ShloMosaic.TcCoe Idealize.SL.Sem
open Idealize.ShloMosaic.ValueIdx

/-- With the factor arrays one minus each mask, the kernel's whole-array function is the specification. -/
theorem whole_eq_kept (x : S32x2048x1536.Idx → Elt Ideal .f32) (tm : S32x2048.Idx → BitVec 1) (fm : S32x1280.Idx → BitVec 1) :
    Final.whole (F := Ideal) x
        (subf (broadcastInDim S32x2048 ![] bcast_S_S32x2048 (constant (F := Ideal) S_ .f32 0x3F800000#32)) (uitofp .f32 tm))
        (subf (broadcastInDim S32x1280 ![] bcast_S_S32x1280 (constant (F := Ideal) S_ .f32 0x3F800000#32)) (uitofp .f32 fm))
      = Cert.KeepSpec.kept x tm fm := by
  funext E
  have hE2 : (E 2).val < 1536 := (E 2).isLt
  by_cases h : (E 2).val < 256
  · rw [Final.whole_video _ _ _ E h, Cert.KeepSpec.kept_video _ _ _ E h]
  · have hr : (E 2).val - 256 < 1280 := by omega
    have h2 : (E 2).val = 256 + ((E 2).val - 256) := by omega
    rw [Final.whole_audio _ _ _ E (E 0) (E 1) (⟨(E 2).val - 256, hr⟩ : Fin 1280) rfl rfl h2,
      Cert.KeepSpec.kept_audio _ _ _ E (E 0) (E 1) (⟨(E 2).val - 256, hr⟩ : Fin 1280) rfl rfl h2]
    show x E * (Ideal.ofBits .f32 0x3F800000#32 - (((tm (ix2 (E 0) (E 1))).toNat : ℝ) : EReal))
        * (Ideal.ofBits .f32 0x3F800000#32 - (((fm (ix2 (E 0) (⟨(E 2).val - 256, hr⟩ : Fin 1280))).toNat : ℝ) : EReal)) = _
    rw [Cert.KeepMask.one_word]
    exact Cert.KeepMask.keep_twice _ _ _

variable (m : (ℓ : Loc nD τ sig) → Buf (Elt Ideal) ℓ) (ρ : Dev nD → PrngReg)

/-- The output array after the run is the specification of the arguments. -/
theorem result (c : Dev nD) :
    (dats m 0 c).arrAt 3 cfg0.N
      = Cert.KeepSpec.kept (m ((c : Thread nD τ).loc main_arg0))
          (Cert.ReferenceIdeal.ReadP.val_main_v37 (F := Ideal) (m ((c : Thread nD τ).loc main_arg1)) (m ((c : Thread nD τ).loc main_arg2)) (m ((c : Thread nD τ).loc main_arg3)))
          (Cert.ReferenceIdeal.ReadP.val_main_v63 (F := Ideal) (m ((c : Thread nD τ).loc main_arg4)) (m ((c : Thread nD τ).loc main_arg5))) :=
  (Final.final m c).trans (by
    rw [V_main_arg0 m c, HostMasks.time_factor m c, HostMasks.lane_factor m c]
    exact whole_eq_kept _ _ _)

/-- The kernel's run: the result array at the specification, the arguments unchanged. -/
theorem run : θ_run defs (onTc (τ := τ) (main (F := Ideal))) ⟨m, fun _ => 0, ρ⟩ fun r => ∀ c : Dev nD,
      r.2.mem ((c : Thread nD τ).loc main_v68)
        = Cert.KeepSpec.kept (m ((c : Thread nD τ).loc main_arg0))
            (Cert.ReferenceIdeal.ReadP.val_main_v37 (F := Ideal) (m ((c : Thread nD τ).loc main_arg1)) (m ((c : Thread nD τ).loc main_arg2)) (m ((c : Thread nD τ).loc main_arg3)))
            (Cert.ReferenceIdeal.ReadP.val_main_v63 (F := Ideal) (m ((c : Thread nD τ).loc main_arg4)) (m ((c : Thread nD τ).loc main_arg5)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (result m c), (h c).2⟩) (Cert.KernelIdeal.Value.run_blocks m ρ)

end Cert.KernelIdeal.Result

end
-- ==== Proof.lean ====
/- The proof of `Cert.Claim`: a kernel that masks the audio lanes of a [32, 2048, 1536] feature array by a time mask and
   a lane mask, against the jnp reference.  Both programs compute the two masks from the lengths and four uniform draws
   by the same operations.  The kernel is handed `1 − mask` for each and writes `(x · (1 − tm)) · (1 − fm)` on the
   audio lanes, copying the video lanes; the reference writes `x · ¬(tm ∨ fm)`.  The two agree by the masking law
   (Proof/LibKeepMask.lean), which holds for every extended real, so the precondition is never opened.
   The modules: Proof/KernelBlock.lean (one grid step's output block as a function of its input blocks),
   Proof/KernelFinal.lean (the 64 blocks tile the output array), Proof/HostMasks.lean (the kernel's two factor arrays
   are one minus the reference's mask stages), Proof/KernelResult.lean (the kernel's result is the specification
   Proof/KeepSpec.lean), Proof/RefValue.lean (so is the reference's).  The idealization rewrote no operation, so
   `preserves` is `True`. -/
import proofs.«166298_j40853728920174_2_alg».proof.Defs
import proofs.«166298_j40853728920174_2_alg».proof.Proof.Gen.Kernel
import proofs.«166298_j40853728920174_2_alg».proof.Proof.Gen.Kernel.Skeleton
import proofs.«166298_j40853728920174_2_alg».proof.Proof.Gen.Kernel.Launch
import proofs.«166298_j40853728920174_2_alg».proof.Proof.Gen.Kernel.Points
import proofs.«166298_j40853728920174_2_alg».proof.Proof.Gen.Kernel.Frame
import proofs.«166298_j40853728920174_2_alg».proof.Proof.Gen.KernelIdeal
import proofs.«166298_j40853728920174_2_alg».proof.Proof.Gen.KernelIdeal.Skeleton
import proofs.«166298_j40853728920174_2_alg».proof.Proof.Gen.KernelIdeal.Launch
import proofs.«166298_j40853728920174_2_alg».proof.Proof.Gen.KernelIdeal.Points
import proofs.«166298_j40853728920174_2_alg».proof.Proof.Gen.KernelIdeal.Frame
import proofs.«166298_j40853728920174_2_alg».proof.Proof.Gen.ReferenceIdeal
import proofs.«166298_j40853728920174_2_alg».proof.Proof.Gen.Pre_finite_inputs
import proofs.«166298_j40853728920174_2_alg».proof.Proof.Gen.KernelIdeal.Value
import proofs.«166298_j40853728920174_2_alg».proof.Proof.RefRunPatched
import proofs.«166298_j40853728920174_2_alg».proof.Proof.RefReadPatched
import proofs.«166298_j40853728920174_2_alg».proof.Proof.RefValue
import proofs.«166298_j40853728920174_2_alg».proof.Proof.KernelResult
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the six arguments both programs end with the specification of those arguments in
    their result array. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v72_eq, Cert.ReferenceIdeal.RefValue.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
